-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩

abbrev nBuf : Space → Nat
  | .hbm => 51
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S100000x1, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S1x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .hbm, ⟨50, _⟩ => ⟨S100000x64, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S5000x1, .f32⟩
  | .local _ .vmem, ⟨29, _⟩ => ⟨S5000x1, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  shapeCasts_S64_S1x64 : S64.ShapeCasts S1x64
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S5000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_1) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call3_cst : Ref sig .tc := ⟨.hbm, 78, rfl⟩
abbrev main_call3_v0 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is three pipelined regions separated by stretches of host operations. The contents of every unscoped
  buffer at each boundary form a fold from the launch memory: a stretch applies its operations, a region replaces
  each of its windows' arrays by what its write-backs leave. The last stage of that fold, read at the result buffer,
  is what every terminating execution leaves there; the argument arrays are read back to their launch contents.
-/
import proofs.«119618_j74122545594672_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last stage of the fold,
    and the five argument arrays end as launched. -/
theorem run_result : θ_run defs (onTc (τ := τ) (main (F := F))) ⟨m, fun _ => 0, ρ⟩ (fun r => ∀ c : Dev nD,
      r.2.mem ((c.tc : Thread nD τ).loc main_v32_0) = W6 m ρ c (Proc.devRef .tc main_v32_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Hand

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LibLayerForms.lean ====
/-
  The three dense steps of a graph-convolution layer, each read at one entry of its result.

  Every layer of the network multiplies the rows of a node-feature matrix by a per-node factor (an R×1 column), and
  either projects first and scales after, or scales first and projects after, then adds a bias row and clips at zero.
  Written entry by entry over the extended reals, for an R-row matrix:

    scaleDotBiasRelu a c W b (p,q) = max (Σₖ (a(p,k)·c(p,0))·W(k,q) + b(0,q)) 0
    dotScale         h W c   (p,q) = (Σₖ h(p,k)·W(k,q))·c(p,0)
    scaleBiasRelu    a c b   (p,q) = max (a(p,q)·c(p,0) + b(0,q)) 0

  Each is reached two ways: by the vector unit's operations on a block (shape casts that change nothing, a column or
  a row spread over the block, a change of float format that is the identity on the extended reals, a matrix product
  into a zero accumulator), and by the host's operations on the whole matrix (the column and the row spread by
  broadcasts, `dot_general`). Entry (p,q) depends only on row p of the row-indexed operands, so a block of rows of
  the whole-matrix result is the same function of the corresponding blocks of rows.
-/
import Idealize.ShloMosaic.PureOps.Ideal.Laws
import Idealize.ShloMosaic.Lib.ValueIdx
import Idealize.ShloMosaic.Lib.Pipeline.Value
import Idealize.ShloMosaic.Lib.KernelVsHost
import proofs.«119618_j74122545594672_1_alg».proof.Proof.LibPlainDot
import proofs.«119618_j74122545594672_1_alg».proof.Proof.LibColumn
import proofs.«119618_j74122545594672_1_alg».proof.Proof.LibBiasRow

noncomputable section

namespace Cert.LayerForms

open Idealize.ShloMosaic Idealize.ShloMosaic.ValueIdx
open scoped BigOperators

variable {R K N : ℕ} {φ : FTy}

/-- The float zero both programs clip against and accumulate into, kept as its word. -/
abbrev zeroW : EReal := Ideal.ofBits .f32 0x00000000#32

/-- Scale the rows, project, add the bias row, clip at zero. -/
def scaleDotBiasRelu (a : FVec Ideal ⟨2, ![R, K]⟩ .f32) (c : FVec Ideal ⟨2, ![R, 1]⟩ .f32) (W : FVec Ideal ⟨2, ![K, N]⟩ φ)
    (b : FVec Ideal ⟨2, ![1, N]⟩ .f32) : FVec Ideal ⟨2, ![R, N]⟩ .f32 :=
  fun i => max ((∑ k : Fin K, (a (ix2 (i 0) k) * c (ix2 (i 0) (0 : Fin 1))) * W (ix2 k (i 1))) + b (ix2 (0 : Fin 1) (i 1))) zeroW

/-- Project, then scale the rows. -/
def dotScale (h : FVec Ideal ⟨2, ![R, K]⟩ .f32) (W : FVec Ideal ⟨2, ![K, N]⟩ φ) (c : FVec Ideal ⟨2, ![R, 1]⟩ .f32) :
    FVec Ideal ⟨2, ![R, N]⟩ .f32 :=
  fun i => (∑ k : Fin K, h (ix2 (i 0) k) * W (ix2 k (i 1))) * c (ix2 (i 0) (0 : Fin 1))

/-- Scale the rows, add the bias row, clip at zero. -/
def scaleBiasRelu (a : FVec Ideal ⟨2, ![R, N]⟩ .f32) (c : FVec Ideal ⟨2, ![R, 1]⟩ .f32) (b : FVec Ideal ⟨2, ![1, N]⟩ .f32) :
    FVec Ideal ⟨2, ![R, N]⟩ .f32 :=
  fun i => max (a (ix2 (i 0) (i 1)) * c (ix2 (i 0) (0 : Fin 1)) + b (ix2 (0 : Fin 1) (i 1))) zeroW

theorem scaleDotBiasRelu_apply (a : FVec Ideal ⟨2, ![R, K]⟩ .f32) (c : FVec Ideal ⟨2, ![R, 1]⟩ .f32) (W : FVec Ideal ⟨2, ![K, N]⟩ φ)
    (b : FVec Ideal ⟨2, ![1, N]⟩ .f32) (p : Fin R) (q : Fin N) :
    scaleDotBiasRelu a c W b (ix2 p q)
      = max ((∑ k : Fin K, (a (ix2 p k) * c (ix2 p (0 : Fin 1))) * W (ix2 k q)) + b (ix2 (0 : Fin 1) q)) zeroW := rfl

theorem dotScale_apply (h : FVec Ideal ⟨2, ![R, K]⟩ .f32) (W : FVec Ideal ⟨2, ![K, N]⟩ φ) (c : FVec Ideal ⟨2, ![R, 1]⟩ .f32)
    (p : Fin R) (q : Fin N) :
    dotScale h W c (ix2 p q) = (∑ k : Fin K, h (ix2 p k) * W (ix2 k q)) * c (ix2 p (0 : Fin 1)) := rfl

theorem scaleBiasRelu_apply (a : FVec Ideal ⟨2, ![R, N]⟩ .f32) (c : FVec Ideal ⟨2, ![R, 1]⟩ .f32) (b : FVec Ideal ⟨2, ![1, N]⟩ .f32)
    (p : Fin R) (q : Fin N) :
    scaleBiasRelu a c b (ix2 p q) = max (a (ix2 p q) * c (ix2 p (0 : Fin 1)) + b (ix2 (0 : Fin 1) q)) zeroW := rfl

/-! ## A 1×N row spread over R rows by the vector unit -/

/-- A `[1, n]` row broadcast to `[r, n]` reads, at `(p, q)`, the row's entry `(0, q)`. -/
theorem broadcastTo_1n_rn_apply {α : Type} {r n : ℕ} (v : (⟨2, ![1, n]⟩ : Shape).Idx → α)
    (h : (⟨2, ![1, n]⟩ : Shape).Broadcasts ⟨2, ![r, n]⟩) (p : Fin r) (q : Fin n) :
    broadcastTo ⟨2, ![r, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The vector unit's forms -/

/-- The body that scales a block's rows, projects it, adds the bias row and clips at zero. -/
theorem body_scaleDotBiasRelu (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![R, 1]⟩ .f32) (x2 : FVec Ideal ⟨2, ![K, N]⟩ .bf16)
    (x3 : FVec Ideal ⟨2, ![1, N]⟩ .f32)
    (h0 : (⟨2, ![R, K]⟩ : Shape).ShapeCasts ⟨2, ![R, K]⟩) (h1 : (⟨2, ![R, 1]⟩ : Shape).ShapeCasts ⟨2, ![R, 1]⟩)
    (h2 : (⟨2, ![K, N]⟩ : Shape).ShapeCasts ⟨2, ![K, N]⟩) (h3 : (⟨2, ![1, N]⟩ : Shape).ShapeCasts ⟨2, ![1, N]⟩)
    (hb1 : (⟨2, ![R, 1]⟩ : Shape).Broadcasts ⟨2, ![R, K]⟩) (hb3 : (⟨2, ![1, N]⟩ : Shape).Broadcasts ⟨2, ![R, N]⟩)
    (hlt : FTy.bf16.bits < FTy.f32.bits) :
    maximumf (addf (matmul d none (truncf .bf16 (mulf (shapeCast ⟨2, ![R, K]⟩ x0 h0)
        (broadcastTo ⟨2, ![R, K]⟩ (shapeCast ⟨2, ![R, 1]⟩ x1 h1) hb1)) hlt) (shapeCast ⟨2, ![K, N]⟩ x2 h2)
        (constant ⟨2, ![R, N]⟩ .f32 0x00000000#32))
      (broadcastTo ⟨2, ![R, N]⟩ (shapeCast ⟨2, ![1, N]⟩ x3 h3) hb3))
      (broadcast ⟨2, ![R, N]⟩ (Scalar.ofBits .f32 0x00000000#32 : Ideal .f32))
    = scaleDotBiasRelu x0 x1 x2 x3 := by
  funext i
  obtain ⟨p, q, rfl⟩ : ∃ (p : Fin R) (q : Fin N), i = ix2 p q := ⟨i 0, i 1, eq_ix2 i⟩
  rw [scaleDotBiasRelu_apply, maximumf_apply, addf_apply, shapeCast_self, shapeCast_self, shapeCast_self, shapeCast_self]
  refine congrArg₂ max (congrArg₂ (· + ·) ((Cert.LibPlainDot.matmul_zero_apply d hd none
    (truncf .bf16 (mulf x0 (broadcastTo ⟨2, ![R, K]⟩ x1 hb1)) hlt) x2 p q).trans (Finset.sum_congr rfl fun k _ => ?_))
    (broadcastTo_1n_rn_apply x3 hb3 p q)) rfl
  rw [truncf_apply, mulf_apply, Cert.LibColumn.broadcastTo_a1_ab_apply]

/-- The body that projects a block and then scales its rows. -/
theorem body_dotScale (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .bf16) (x2 : FVec Ideal ⟨2, ![R, 1]⟩ .f32)
    (h0 : (⟨2, ![R, K]⟩ : Shape).ShapeCasts ⟨2, ![R, K]⟩) (h1 : (⟨2, ![K, N]⟩ : Shape).ShapeCasts ⟨2, ![K, N]⟩)
    (h2 : (⟨2, ![R, 1]⟩ : Shape).ShapeCasts ⟨2, ![R, 1]⟩)
    (hb2 : (⟨2, ![R, 1]⟩ : Shape).Broadcasts ⟨2, ![R, N]⟩) (hlt : FTy.bf16.bits < FTy.f32.bits) :
    mulf (matmul d none (truncf .bf16 (shapeCast ⟨2, ![R, K]⟩ x0 h0) hlt) (shapeCast ⟨2, ![K, N]⟩ x1 h1)
        (constant ⟨2, ![R, N]⟩ .f32 0x00000000#32))
      (broadcastTo ⟨2, ![R, N]⟩ (shapeCast ⟨2, ![R, 1]⟩ x2 h2) hb2)
    = dotScale x0 x1 x2 := by
  funext i
  obtain ⟨p, q, rfl⟩ : ∃ (p : Fin R) (q : Fin N), i = ix2 p q := ⟨i 0, i 1, eq_ix2 i⟩
  rw [dotScale_apply, mulf_apply, shapeCast_self, shapeCast_self, shapeCast_self, Cert.LibColumn.broadcastTo_a1_ab_apply]
  exact congrArg (· * x2 (ix2 p (0 : Fin 1))) (Cert.LibPlainDot.matmul_zero_apply d hd none (truncf .bf16 x0 hlt) x1 p q)

/-- The body that scales a block's rows, adds the bias row and clips at zero. -/
theorem body_scaleBiasRelu (x0 : FVec Ideal ⟨2, ![R, N]⟩ .f32) (x1 : FVec Ideal ⟨2, ![R, 1]⟩ .f32) (x2 : FVec Ideal ⟨2, ![1, N]⟩ .f32)
    (h0 : (⟨2, ![R, N]⟩ : Shape).ShapeCasts ⟨2, ![R, N]⟩) (h1 : (⟨2, ![R, 1]⟩ : Shape).ShapeCasts ⟨2, ![R, 1]⟩)
    (h2 : (⟨2, ![1, N]⟩ : Shape).ShapeCasts ⟨2, ![1, N]⟩)
    (hb1 : (⟨2, ![R, 1]⟩ : Shape).Broadcasts ⟨2, ![R, N]⟩) (hb2 : (⟨2, ![1, N]⟩ : Shape).Broadcasts ⟨2, ![R, N]⟩) :
    maximumf (addf (mulf (shapeCast ⟨2, ![R, N]⟩ x0 h0) (broadcastTo ⟨2, ![R, N]⟩ (shapeCast ⟨2, ![R, 1]⟩ x1 h1) hb1))
        (broadcastTo ⟨2, ![R, N]⟩ (shapeCast ⟨2, ![1, N]⟩ x2 h2) hb2))
      (broadcast ⟨2, ![R, N]⟩ (Scalar.ofBits .f32 0x00000000#32 : Ideal .f32))
    = scaleBiasRelu x0 x1 x2 := by
  funext i
  obtain ⟨p, q, rfl⟩ : ∃ (p : Fin R) (q : Fin N), i = ix2 p q := ⟨i 0, i 1, eq_ix2 i⟩
  rw [scaleBiasRelu_apply, maximumf_apply, addf_apply, mulf_apply, shapeCast_self, shapeCast_self, shapeCast_self,
    Cert.LibColumn.broadcastTo_a1_ab_apply, broadcastTo_1n_rn_apply, broadcast_apply]
  rfl

/-! ## A block of rows -/

/-- Entry (p, q) of the first step reads only row p of the features and of the column: a block of rows of the result
    is the step of the blocks of rows. -/
theorem scaleDotBiasRelu_rows {R' : ℕ} (ρ : Fin R' → Fin R)
    (a : FVec Ideal ⟨2, ![R, K]⟩ .f32) (c : FVec Ideal ⟨2, ![R, 1]⟩ .f32) (W : FVec Ideal ⟨2, ![K, N]⟩ φ) (b : FVec Ideal ⟨2, ![1, N]⟩ .f32)
    (a' : FVec Ideal ⟨2, ![R', K]⟩ .f32) (c' : FVec Ideal ⟨2, ![R', 1]⟩ .f32) (W' : FVec Ideal ⟨2, ![K, N]⟩ φ) (b' : FVec Ideal ⟨2, ![1, N]⟩ .f32)
    (ha : ∀ p k, a' (ix2 p k) = a (ix2 (ρ p) k)) (hc : ∀ p, c' (ix2 p (0 : Fin 1)) = c (ix2 (ρ p) (0 : Fin 1)))
    (hW : W' = W) (hb : b' = b) (p : Fin R') (q : Fin N) :
    scaleDotBiasRelu a' c' W' b' (ix2 p q) = scaleDotBiasRelu a c W b (ix2 (ρ p) q) := by
  subst hW hb
  rw [scaleDotBiasRelu_apply, scaleDotBiasRelu_apply, hc]
  refine congrArg (fun s => max (s + b' (ix2 (0 : Fin 1) q)) _) (Finset.sum_congr rfl fun k _ => ?_)
  rw [ha]

theorem dotScale_rows {R' : ℕ} (ρ : Fin R' → Fin R)
    (h : FVec Ideal ⟨2, ![R, K]⟩ .f32) (W : FVec Ideal ⟨2, ![K, N]⟩ φ) (c : FVec Ideal ⟨2, ![R, 1]⟩ .f32)
    (h' : FVec Ideal ⟨2, ![R', K]⟩ .f32) (W' : FVec Ideal ⟨2, ![K, N]⟩ φ) (c' : FVec Ideal ⟨2, ![R', 1]⟩ .f32)
    (hh : ∀ p k, h' (ix2 p k) = h (ix2 (ρ p) k)) (hW : W' = W) (hc : ∀ p, c' (ix2 p (0 : Fin 1)) = c (ix2 (ρ p) (0 : Fin 1)))
    (p : Fin R') (q : Fin N) :
    dotScale h' W' c' (ix2 p q) = dotScale h W c (ix2 (ρ p) q) := by
  subst hW
  rw [dotScale_apply, dotScale_apply, hc]
  refine congrArg (fun s => s * c (ix2 (ρ p) (0 : Fin 1))) (Finset.sum_congr rfl fun k _ => ?_)
  rw [hh]

theorem scaleBiasRelu_rows {R' : ℕ} (ρ : Fin R' → Fin R)
    (a : FVec Ideal ⟨2, ![R, N]⟩ .f32) (c : FVec Ideal ⟨2, ![R, 1]⟩ .f32) (b : FVec Ideal ⟨2, ![1, N]⟩ .f32)
    (a' : FVec Ideal ⟨2, ![R', N]⟩ .f32) (c' : FVec Ideal ⟨2, ![R', 1]⟩ .f32) (b' : FVec Ideal ⟨2, ![1, N]⟩ .f32)
    (ha : ∀ p q, a' (ix2 p q) = a (ix2 (ρ p) q)) (hc : ∀ p, c' (ix2 p (0 : Fin 1)) = c (ix2 (ρ p) (0 : Fin 1)))
    (hb : b' = b) (p : Fin R') (q : Fin N) :
    scaleBiasRelu a' c' b' (ix2 p q) = scaleBiasRelu a c b (ix2 (ρ p) q) := by
  subst hb
  rw [scaleBiasRelu_apply, scaleBiasRelu_apply, hc, ha]

/-! ## The host's forms -/

/-- An `[a, 1]` column spread by the host over `b` columns reads, at `(i, j)`, the column's entry `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host's first step on the whole matrix: scale the rows by the column, `dot_general`, add the bias spread over
    the rows, clip at zero. -/
theorem host_scaleDotBiasRelu (d : DotDims ⟨2, ![R, K]⟩ ⟨2, ![K, N]⟩ ⟨2, ![R, N]⟩) (hd : d = DotDims.plain R K N)
    (a : FVec Ideal ⟨2, ![R, K]⟩ .f32) (c : FVec Ideal ⟨2, ![R, 1]⟩ .f32) (W : FVec Ideal ⟨2, ![K, N]⟩ .f32) (b : FVec Ideal ⟨1, ![N]⟩ .f32)
    (hc : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (Host.dotGeneral d none (mulf a (broadcastInDim ⟨2, ![R, K]⟩ ![0, 1] hc c)) W)
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleDotBiasRelu a c W (Cert.Row.rowOf b) := by
  funext i
  obtain ⟨p, q, rfl⟩ : ∃ (p : Fin R) (q : Fin N), i = ix2 p q := ⟨i 0, i 1, eq_ix2 i⟩
  rw [scaleDotBiasRelu_apply, maximumf_apply, addf_apply, Cert.Row.bcast_row_apply, broadcastInDim_constant, broadcast_apply, Ideal.ofBits_def]
  have hdot := Cert.LibPlainDot.dotGeneral_apply d hd none .single (mulf a (broadcastInDim ⟨2, ![R, K]⟩ ![0, 1] hc c)) W p q
  refine congrArg (fun s => max (s + Cert.Row.rowOf b (ix2 (0 : Fin 1) q)) zeroW) (hdot.trans (Finset.sum_congr rfl fun k _ => ?_))
  rw [mulf_apply, broadcastInDim_a1_ab_apply]

/-- The host's projection of the whole matrix followed by the scaling of its rows. -/
theorem host_dotScale (d : DotDims ⟨2, ![R, K]⟩ ⟨2, ![K, N]⟩ ⟨2, ![R, N]⟩) (hd : d = DotDims.plain R K N)
    (h : FVec Ideal ⟨2, ![R, K]⟩ .f32) (W : FVec Ideal ⟨2, ![K, N]⟩ .f32) (c : FVec Ideal ⟨2, ![R, 1]⟩ .f32)
    (hc : (⟨2, ![R, 1]⟩ : Shape).BroadcastsInDim ⟨2, ![R, N]⟩ ![0, 1]) :
    mulf (Host.dotGeneral d none h W) (broadcastInDim ⟨2, ![R, N]⟩ ![0, 1] hc c) = dotScale h W c := by
  funext i
  obtain ⟨p, q, rfl⟩ : ∃ (p : Fin R) (q : Fin N), i = ix2 p q := ⟨i 0, i 1, eq_ix2 i⟩
  rw [dotScale_apply, mulf_apply, broadcastInDim_a1_ab_apply]
  exact congrArg (· * c (ix2 p (0 : Fin 1))) (Cert.LibPlainDot.dotGeneral_apply d hd none .single h W p q)

/-- The host's scaling of the rows of the whole matrix, the bias spread over the rows, the clip at zero. -/
theorem host_scaleBiasRelu (a : FVec Ideal ⟨2, ![R, N]⟩ .f32) (c : FVec Ideal ⟨2, ![R, 1]⟩ .f32) (b : FVec Ideal ⟨1, ![N]⟩ .f32)
    (hc : (⟨2, ![R, 1]⟩ : Shape).BroadcastsInDim ⟨2, ![R, N]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (mulf a (broadcastInDim ⟨2, ![R, N]⟩ ![0, 1] hc c))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleBiasRelu a c (Cert.Row.rowOf b) := by
  funext i
  obtain ⟨p, q, rfl⟩ : ∃ (p : Fin R) (q : Fin N), i = ix2 p q := ⟨i 0, i 1, eq_ix2 i⟩
  rw [scaleBiasRelu_apply, maximumf_apply, addf_apply, mulf_apply, Cert.Row.bcast_row_apply, broadcastInDim_constant, broadcast_apply, Ideal.ofBits_def,
    broadcastInDim_a1_ab_apply]

end Cert.LayerForms

end
-- ==== Proof.LibNormLaw.lean ====
/-
  The one law of real arithmetic that joins the two programs.

  The kernel normalises a node's degree d by the reciprocal square root of max(d, 1); the reference raises
  max(1, d) to the power -1/2. On the extended reals the clamped degree lies in [1, +inf]. At +inf both conventions
  give 0; at a real r >= 1 the power is r^(-1/2) = 1/sqrt(r), the reciprocal square root. Below 1 the two operations
  may differ (at 0 or at negative numbers), which is why the clamp is part of the statement.
-/
import Idealize.ShloMosaic.PureOps.Ideal

noncomputable section

namespace Cert.NormLaw

open Idealize.ShloMosaic

/-- The float word of 1.0 denotes the real number 1. -/
theorem ofBits_one : Ideal.ofBits .f32 0x3F800000#32 = 1 := by
  simp [Ideal.ofBits, Ideal.ieee, -EReal.coe_mul]; norm_num

/-- The float word of -0.5 denotes the real number -1/2. -/
theorem ofBits_neg_half : Ideal.ofBits .f32 0xBF000000#32 = ((-(1 / 2) : ℝ) : EReal) := by
  simp [Ideal.ofBits, Ideal.ieee, -EReal.coe_mul]; norm_num

/-- From 1 upwards, the power -1/2 is the reciprocal square root. -/
theorem pow_neg_half_eq_rsqrt (x : EReal) (hx : 1 ≤ x) :
    Ideal.pow x ((-(1 / 2) : ℝ) : EReal) = Ideal.rsqrt x := by
  induction x using EReal.rec with
  | bot => exact absurd (le_bot_iff.mp hx) (by exact_mod_cast EReal.coe_ne_bot (1 : ℝ))
  | top =>
    rw [Ideal.pow_top, Ideal.rsqrt_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
  | coe r =>
    have hr : (1 : ℝ) ≤ r := by exact_mod_cast hx
    rw [Ideal.pow_coe_coe, Ideal.rsqrt_coe, if_neg (by linarith : ¬ r < 0), if_neg (by linarith : ¬ r = 0)]
    congr 1
    show Real.rpow r (-(1 / 2)) = (Real.sqrt r)⁻¹
    rw [Real.rpow_eq_pow, Real.rpow_neg (by linarith), Real.sqrt_eq_rpow]

/-- The reference's normalisation of a degree is the kernel's, with the float words as the programs spell them. -/
theorem pow_clamp_eq_rsqrt_clamp (d : EReal) :
    Ideal.pow (max (Ideal.ofBits .f32 0x3F800000#32) d) (Ideal.ofBits .f32 0xBF000000#32)
      = Ideal.rsqrt (max d (Ideal.ofBits .f32 0x3F800000#32)) := by
  rw [ofBits_one, ofBits_neg_half, max_comm]
  exact pow_neg_half_eq_rsqrt _ (le_max_right _ _)

end Cert.NormLaw

end
-- ==== Proof.LibNormForms.lean ====
/-
  The two small steps around the dense step of a symmetric-normalised graph convolution, read at an entry.

  A node's degree d gives its normalisation 1/sqrt(max(d, 1)), kept as an R×1 column (`normCol`); a feature matrix is
  scaled row by row by such a column (`scaleRows`): entry (p, q) is h(p, q)·c(p, 0). Each is reached by the vector
  unit's operations on a block and by the host's operations on the whole array, and each entry depends only on row p
  of its operands, so a block of rows of the result is the same function of the blocks of rows.
-/
import Idealize.ShloMosaic.PureOps.Ideal.Laws
import Idealize.ShloMosaic.Lib.ValueIdx
import Idealize.ShloMosaic.Lib.Pipeline.Value
import Idealize.ShloMosaic.Lib.KernelVsHost
import proofs.«119618_j74122545594672_1_alg».proof.Proof.LibColumn
import proofs.«119618_j74122545594672_1_alg».proof.Proof.LibLayerForms
import proofs.«119618_j74122545594672_1_alg».proof.Proof.LibNormLaw

noncomputable section

namespace Cert.Forms

open Idealize.ShloMosaic Idealize.ShloMosaic.ValueIdx

variable {R N : ℕ}

/-- The float one the degrees are clamped at, kept as its word. -/
abbrev oneW : EReal := Ideal.ofBits .f32 0x3F800000#32

/-- The normalisation column of a degree column: 1/sqrt(max(d, 1)) entry by entry. -/
def normCol (d : FVec Ideal ⟨2, ![R, 1]⟩ .f32) : FVec Ideal ⟨2, ![R, 1]⟩ .f32 := fun i => Ideal.rsqrt (max (d i) oneW)

/-- Scale row p of a matrix by entry (p, 0) of a column. -/
def scaleRows (h : FVec Ideal ⟨2, ![R, N]⟩ .f32) (c : FVec Ideal ⟨2, ![R, 1]⟩ .f32) : FVec Ideal ⟨2, ![R, N]⟩ .f32 :=
  fun i => h i * c (ix2 (i 0) (0 : Fin 1))

theorem normCol_apply (d : FVec Ideal ⟨2, ![R, 1]⟩ .f32) (i : (⟨2, ![R, 1]⟩ : Shape).Idx) :
    normCol d i = Ideal.rsqrt (max (d i) oneW) := rfl

theorem scaleRows_apply (h : FVec Ideal ⟨2, ![R, N]⟩ .f32) (c : FVec Ideal ⟨2, ![R, 1]⟩ .f32) (p : Fin R) (q : Fin N) :
    scaleRows h c (ix2 p q) = h (ix2 p q) * c (ix2 p (0 : Fin 1)) := rfl

/-! ## The vector unit's forms -/

/-- The body's clamp at one followed by the reciprocal square root, on a column block. -/
theorem body_normCol (x : FVec Ideal ⟨2, ![R, 1]⟩ .f32) (h : (⟨2, ![R, 1]⟩ : Shape).ShapeCasts ⟨2, ![R, 1]⟩) :
    rsqrt (maximumf (shapeCast ⟨2, ![R, 1]⟩ x h) (broadcast ⟨2, ![R, 1]⟩ (Scalar.ofBits .f32 0x3F800000#32 : Ideal .f32)))
      = normCol x := by
  rw [shapeCast_self]; rfl

/-- The body's product of a block with a column spread over the block's columns. -/
theorem body_scaleRows (x : FVec Ideal ⟨2, ![R, N]⟩ .f32) (c : FVec Ideal ⟨2, ![R, 1]⟩ .f32)
    (hb : (⟨2, ![R, 1]⟩ : Shape).Broadcasts ⟨2, ![R, N]⟩) :
    mulf x (broadcastTo ⟨2, ![R, N]⟩ c hb) = scaleRows x c := by
  funext i
  obtain ⟨p, q, rfl⟩ : ∃ (p : Fin R) (q : Fin N), i = ix2 p q := ⟨i 0, i 1, eq_ix2 i⟩
  rw [scaleRows_apply, mulf_apply, Cert.LibColumn.broadcastTo_a1_ab_apply]

/-! ## A block of rows -/

theorem normCol_rows {R' : ℕ} (ρ : Fin R' → Fin R) (d : FVec Ideal ⟨2, ![R, 1]⟩ .f32) (d' : FVec Ideal ⟨2, ![R', 1]⟩ .f32)
    (hd : ∀ p, d' (ix2 p (0 : Fin 1)) = d (ix2 (ρ p) (0 : Fin 1))) (p : Fin R') :
    normCol d' (ix2 p (0 : Fin 1)) = normCol d (ix2 (ρ p) (0 : Fin 1)) := by
  rw [normCol_apply, normCol_apply, hd]

theorem scaleRows_rows {R' : ℕ} (ρ : Fin R' → Fin R) (h : FVec Ideal ⟨2, ![R, N]⟩ .f32) (c : FVec Ideal ⟨2, ![R, 1]⟩ .f32)
    (h' : FVec Ideal ⟨2, ![R', N]⟩ .f32) (c' : FVec Ideal ⟨2, ![R', 1]⟩ .f32)
    (hh : ∀ p q, h' (ix2 p q) = h (ix2 (ρ p) q)) (hc : ∀ p, c' (ix2 p (0 : Fin 1)) = c (ix2 (ρ p) (0 : Fin 1)))
    (p : Fin R') (q : Fin N) :
    scaleRows h' c' (ix2 p q) = scaleRows h c (ix2 (ρ p) q) := by
  rw [scaleRows_apply, scaleRows_apply, hh, hc]

/-! ## The host's forms -/

/-- An `[a]` vector spread by the host to an `[a, 1]` column reads, at `(i, u)`, the vector's entry `i`. -/
theorem broadcastInDim_a_a1_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply ![0] h v (ix2 i u) (ix1 i) fun ax => ?_
  match ax with
  | ⟨0, _⟩ =>
    show i.val = if a = 1 then 0 else i.val
    split
    · have := i.isLt; omega
    · rfl

/-- The host's normalisation of a degree vector, made a column: the clamp at one, the power -1/2. It is the
    normalisation column of the degree vector reshaped to a column. -/
theorem host_normCol (deg : FVec Ideal ⟨1, ![R]⟩ .f32)
    (hz : (⟨0, ![]⟩ : Shape).BroadcastsInDim ⟨1, ![R]⟩ ![]) (hc : (⟨1, ![R]⟩ : Shape).BroadcastsInDim ⟨2, ![R, 1]⟩ ![0])
    (hs : (⟨1, ![R]⟩ : Shape).ShapeCasts ⟨2, ![R, 1]⟩) :
    broadcastInDim ⟨2, ![R, 1]⟩ ![0] hc
        (Host.powf (maximumf (broadcastInDim ⟨1, ![R]⟩ ![] hz (id (constant (F := Ideal) ⟨0, ![]⟩ .f32 0x3F800000#32))) deg)
          (broadcastInDim ⟨1, ![R]⟩ ![] hz (constant (F := Ideal) ⟨0, ![]⟩ .f32 0xBF000000#32)))
      = normCol (shapeCast ⟨2, ![R, 1]⟩ deg hs) := by
  funext i
  obtain ⟨p, u, rfl⟩ : ∃ (p : Fin R) (u : Fin 1), i = ix2 p u := ⟨i 0, i 1, eq_ix2 i⟩
  rw [broadcastInDim_a_a1_apply, normCol_apply, Cert.LibColumn.shapeCast_a_a1_apply, id, broadcastInDim_constant, broadcastInDim_constant]
  exact Cert.NormLaw.pow_clamp_eq_rsqrt_clamp (deg (ix1 p))

/-- The host's product of a matrix with a column spread over its columns. -/
theorem host_scaleRows (h : FVec Ideal ⟨2, ![R, N]⟩ .f32) (c : FVec Ideal ⟨2, ![R, 1]⟩ .f32)
    (hc : (⟨2, ![R, 1]⟩ : Shape).BroadcastsInDim ⟨2, ![R, N]⟩ ![0, 1]) :
    mulf h (broadcastInDim ⟨2, ![R, N]⟩ ![0, 1] hc c) = scaleRows h c := by
  funext i
  obtain ⟨p, q, rfl⟩ : ∃ (p : Fin R) (q : Fin N), i = ix2 p q := ⟨i 0, i 1, eq_ix2 i⟩
  rw [scaleRows_apply, mulf_apply, Cert.LayerForms.broadcastInDim_a1_ab_apply]

end Cert.Forms

end
-- ==== Proof.Net.lean ====
/-
  The network both programs compute, as one function of the five argument arrays.

  From the edge lists the host counts each node's out- and in-degree by scatter-adding ones; the normalisation of a
  degree d is 1/sqrt(max(d, 1)). One application of the layer scales the rows of the current features by the
  out-normalisation, sends each edge's source row to its destination by a gather followed by a scatter-add
  (`aggOf`), scales the rows of the sum by the in-normalisation, multiplies by the weights, adds the bias and clips at
  zero. The layer is applied twice with the same weights, and the result is the second application's output.
  The gather and the scatter are kept as the host's own operations: both programs apply the same ones to the same
  edge lists, so nothing about which rows they move is needed.
-/
import proofs.«119618_j74122545594672_1_alg».proof.KernelIdeal
import proofs.«119618_j74122545594672_1_alg».proof.Proof.Gen.KernelIdeal
import proofs.«119618_j74122545594672_1_alg».proof.Proof.LibNormForms

noncomputable section

namespace Cert.KernelIdeal.Hand

open Cert.KernelIdeal Cert.KernelIdeal.Gen Idealize.ShloMosaic Idealize.ShloMosaic.ValueIdx

/-- The degree column counted from an edge-endpoint list: ones scatter-added into zeros, as a column. -/
def degCol (ix : (⟨S1600000, .i32⟩ : BufTy).Contents (Elt Ideal)) : (⟨S100000x1, .f32⟩ : BufTy).Contents (Elt Ideal) :=
  shapeCast S100000x1
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 ix)
      (broadcastInDim S1600000 ![] bcast_S_S1600000 (constant (F := Ideal) S_ .f32 0x3F800000#32)))
    shapeCasts_S100000_S100000x1

/-- One aggregation: the rows of `h` gathered at the (wrapped) source indices, scatter-added at the destinations. -/
def aggOf (src dst : (⟨S1600000, .i32⟩ : BufTy).Contents (Elt Ideal)) (h : (⟨S100000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One application of the layer to features already scaled by the out-normalisation. -/
def layer (src dst : (⟨S1600000, .i32⟩ : BufTy).Contents (Elt Ideal)) (W : (⟨S64x64, .f32⟩ : BufTy).Contents (Elt Ideal))
    (b : (⟨S64, .f32⟩ : BufTy).Contents (Elt Ideal)) (hs : (⟨S100000x64, .f32⟩ : BufTy).Contents (Elt Ideal)) :
    (⟨S100000x64, .f32⟩ : BufTy).Contents (Elt Ideal) :=
  Cert.LayerForms.scaleDotBiasRelu (R := 100000) (K := 64) (N := 64) (φ := .f32) (aggOf src dst hs)
    (Cert.Forms.normCol (degCol dst)) W (Cert.Row.rowOf b)

/-- The network: two applications of the layer. -/
def net (feat : (⟨S100000x64, .f32⟩ : BufTy).Contents (Elt Ideal)) (W : (⟨S64x64, .f32⟩ : BufTy).Contents (Elt Ideal))
    (b : (⟨S64, .f32⟩ : BufTy).Contents (Elt Ideal)) (src dst : (⟨S1600000, .i32⟩ : BufTy).Contents (Elt Ideal)) :
    (⟨S100000x64, .f32⟩ : BufTy).Contents (Elt Ideal) :=
  layer src dst W b
    (Cert.Forms.scaleRows (R := 100000) (N := 64)
      (layer src dst W b (Cert.Forms.scaleRows (R := 100000) (N := 64) feat (Cert.Forms.normCol (degCol src))))
      (Cert.Forms.normCol (degCol src)))

end Cert.KernelIdeal.Hand

end
-- ==== Proof.Region0.lean ====
import proofs.«119618_j74122545594672_1_alg».proof.Proof.Gen.KernelIdeal.Frame
import proofs.«119618_j74122545594672_1_alg».proof.Proof.LibNormForms
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-!
  The first region: the normalisation columns and the first scaled features.

  Its grid has 20 points; at point t every row-indexed window holds rows 5000·t … 5000·t + 4999 of its array. The body
  clamps each degree column at one and takes the reciprocal square root, and scales the feature block by the first of
  those columns. Since an entry of each result depends only on the same row of the operands, block t of each output
  array is block t of one whole-array function of the arrays the region is entered with, and the 20 blocks tile the
  100000 rows: so each output array ends as that whole-array function.
-/

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 5000·t + p of the array. -/
def blockRow (t : ℕ) (ht : t < 20) (p : Fin 5000) : Fin 100000 := ⟨5000 * t + p.val, by have := p.isLt; omega⟩

/-- Every window of the first region is at block (t, 0) at point t. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem lt0 (t : Fin cfg0.N) : t.val < 20 := by
  have h := t.isLt
  have hN : cfg0.N = 20 := N_0
  omega

/-! ## The blocks of the input windows -/

theorem iblk0_0_apply (c : Dev nD) (t : Fin cfg0.N) (p : Fin 5000) :
    (iblk0 V c 0 t : Vec Ideal S5000x1 .f32) (ix2 p (0 : Fin 1))
      = (V c main_v4 : S100000x1.Idx → EReal) (ix2 (blockRow t.val (lt0 t) p) (0 : Fin 1)) := by
  obtain ⟨⟨e0, e1⟩, -⟩ := idx0 t
  show V c main_v4 (((cfg0.win 0).blk t).view.emb (ix2 p (0 : Fin 1))) = _
  refine congrArg (V c main_v4) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 1 + 1 * 0 = 0; rw [e1]

theorem iblk0_1_apply (c : Dev nD) (t : Fin cfg0.N) (p : Fin 5000) :
    (iblk0 V c 1 t : Vec Ideal S5000x1 .f32) (ix2 p (0 : Fin 1))
      = (V c main_v8 : S100000x1.Idx → EReal) (ix2 (blockRow t.val (lt0 t) p) (0 : Fin 1)) := by
  obtain ⟨-, ⟨e0, e1⟩, -⟩ := idx0 t
  show V c main_v8 (((cfg0.win 1).blk t).view.emb (ix2 p (0 : Fin 1))) = _
  refine congrArg (V c main_v8) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

theorem iblk0_2_apply (c : Dev nD) (t : Fin cfg0.N) (p : Fin 5000) (q : Fin 64) :
    (iblk0 V c 2 t : Vec Ideal S5000x64 .f32) (ix2 p q)
      = (V c main_arg0 : S100000x64.Idx → EReal) (ix2 (blockRow t.val (lt0 t) p) q) := by
  obtain ⟨-, -, ⟨e0, e1⟩, -⟩ := idx0 t
  show V c main_arg0 (((cfg0.win 2).blk t).view.emb (ix2 p q)) = _
  refine congrArg (V c main_arg0) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 64 + 1 * q.val = q.val; rw [e1]; omega

/-! ## Where the output windows' blocks lie -/

theorem emb0_3 (t : Fin cfg0.N) (p : Fin 5000) :
    (((cfg0.win 3).blk t).view.emb (ix2 p (0 : Fin 1)) : S100000x1.Idx) = ix2 (blockRow t.val (lt0 t) p) (0 : Fin 1) := by
  obtain ⟨-, -, -, ⟨e0, e1⟩, -⟩ := idx0 t
  refine funext fun a => Fin.ext ?_
  match a with
  | ⟨0, _⟩ => show win0_3.index t (0 : Fin 2) * 5000 + 1 * p.val = 5000 * t.val + p.val; rw [e0]; omega
  | ⟨1, _⟩ => show win0_3.index t (1 : Fin 2) * 1 + 1 * 0 = 0; rw [e1]

theorem emb0_4 (t : Fin cfg0.N) (p : Fin 5000) :
    (((cfg0.win 4).blk t).view.emb (ix2 p (0 : Fin 1)) : S100000x1.Idx) = ix2 (blockRow t.val (lt0 t) p) (0 : Fin 1) := by
  obtain ⟨-, -, -, -, ⟨e0, e1⟩, -⟩ := idx0 t
  refine funext fun a => Fin.ext ?_
  match a with
  | ⟨0, _⟩ => show win0_4.index t (0 : Fin 2) * 5000 + 1 * p.val = 5000 * t.val + p.val; rw [e0]; omega
  | ⟨1, _⟩ => show win0_4.index t (1 : Fin 2) * 1 + 1 * 0 = 0; rw [e1]

theorem emb0_5 (t : Fin cfg0.N) (p : Fin 5000) (q : Fin 64) :
    (((cfg0.win 5).blk t).view.emb (ix2 p q) : S100000x64.Idx) = ix2 (blockRow t.val (lt0 t) p) q := by
  obtain ⟨-, -, -, -, -, ⟨e0, e1⟩⟩ := idx0 t
  refine funext fun a => Fin.ext ?_
  match a with
  | ⟨0, _⟩ => show win0_5.index t (0 : Fin 2) * 5000 + 1 * p.val = 5000 * t.val + p.val; rw [e0]; omega
  | ⟨1, _⟩ => show win0_5.index t (1 : Fin 2) * 64 + 1 * q.val = q.val; rw [e1]; omega

/-! ## The body's stored values -/

theorem pay0_1 (x : Vec Ideal S5000x1 .f32) : k0_pay1 (F := Ideal) x = Cert.Forms.normCol x := by
  unfold k0_pay1; exact Cert.Forms.body_normCol x _

theorem pay0_2 (x : Vec Ideal S5000x1 .f32) : k0_pay2 (F := Ideal) x = Cert.Forms.normCol x := by
  unfold k0_pay2; exact Cert.Forms.body_normCol x _

theorem pay0_3 (x0 : Vec Ideal S5000x1 .f32) (x2 : Vec Ideal S5000x64 .f32) :
    k0_pay3 (F := Ideal) x0 x2 = Cert.Forms.scaleRows x2 (Cert.Forms.normCol x0) := by
  unfold k0_pay3; rw [pay0_1]; exact Cert.Forms.body_scaleRows x2 _ _

/-! ## What each point writes back -/

theorem flushed0_3 (c : Dev nD) (t : Fin cfg0.N) :
    (dat0 V c).flushed 3 t = ((cfg0.win 3).blk t).view.read (Elt Ideal) (Cert.Forms.normCol (R := 100000) (V c main_v4)) := by
  show (cfg0.win 3).cut (grid0.coords t) ((dat0 V c).after 3 t) = _
  rw [after0_3]
  unfold out0_3
  rw [View.canon_unit_zero hz]
  simp only [View.ld_unit_zero (S := S5000x1) hz]
  rw [pay0_1]
  funext j
  obtain ⟨p, u, rfl⟩ : ∃ (p : Fin 5000) (u : Fin 1), j = ix2 p u := ⟨j 0, j 1, eq_ix2 j⟩
  obtain rfl : u = 0 := Subsingleton.elim _ _
  show Cert.Forms.normCol (R := 5000) (iblk0 V c 0 t) (ix2 p (0 : Fin 1))
    = Cert.Forms.normCol (R := 100000) (V c main_v4) (((cfg0.win 3).blk t).view.emb (ix2 p (0 : Fin 1)))
  rw [emb0_3]
  exact Cert.Forms.normCol_rows (blockRow t.val (lt0 t)) _ _ (fun p => iblk0_0_apply V c t p) p

theorem flushed0_4 (c : Dev nD) (t : Fin cfg0.N) :
    (dat0 V c).flushed 4 t = ((cfg0.win 4).blk t).view.read (Elt Ideal) (Cert.Forms.normCol (R := 100000) (V c main_v8)) := by
  show (cfg0.win 4).cut (grid0.coords t) ((dat0 V c).after 4 t) = _
  rw [after0_4]
  unfold out0_4
  rw [View.canon_unit_zero hz]
  simp only [View.ld_unit_zero (S := S5000x1) hz]
  rw [pay0_2]
  funext j
  obtain ⟨p, u, rfl⟩ : ∃ (p : Fin 5000) (u : Fin 1), j = ix2 p u := ⟨j 0, j 1, eq_ix2 j⟩
  obtain rfl : u = 0 := Subsingleton.elim _ _
  show Cert.Forms.normCol (R := 5000) (iblk0 V c 1 t) (ix2 p (0 : Fin 1))
    = Cert.Forms.normCol (R := 100000) (V c main_v8) (((cfg0.win 4).blk t).view.emb (ix2 p (0 : Fin 1)))
  rw [emb0_4]
  exact Cert.Forms.normCol_rows (blockRow t.val (lt0 t)) _ _ (fun p => iblk0_1_apply V c t p) p

theorem flushed0_5 (c : Dev nD) (t : Fin cfg0.N) :
    (dat0 V c).flushed 5 t = ((cfg0.win 5).blk t).view.read (Elt Ideal)
      (Cert.Forms.scaleRows (R := 100000) (N := 64) (V c main_arg0) (Cert.Forms.normCol (V c main_v4))) := by
  show (cfg0.win 5).cut (grid0.coords t) ((dat0 V c).after 5 t) = _
  rw [after0_5]
  unfold out0_5
  rw [View.canon_unit_zero hz]
  simp only [View.ld_unit_zero (S := S5000x1) hz, View.ld_unit_zero (S := S5000x64) hz]
  rw [pay0_3]
  funext j
  obtain ⟨p, q, rfl⟩ : ∃ (p : Fin 5000) (q : Fin 64), j = ix2 p q := ⟨j 0, j 1, eq_ix2 j⟩
  show Cert.Forms.scaleRows (R := 5000) (N := 64) (iblk0 V c 2 t) (Cert.Forms.normCol (iblk0 V c 0 t)) (ix2 p q)
    = Cert.Forms.scaleRows (R := 100000) (N := 64) (V c main_arg0) (Cert.Forms.normCol (V c main_v4)) (((cfg0.win 5).blk t).view.emb (ix2 p q))
  rw [emb0_5]
  exact Cert.Forms.scaleRows_rows (blockRow t.val (lt0 t)) _ _ _ _ (fun p k => iblk0_2_apply V c t p k)
    (fun p => Cert.Forms.normCol_rows (blockRow t.val (lt0 t)) _ _ (fun p => iblk0_0_apply V c t p) p) p q

/-! ## The 20 blocks tile the rows -/

theorem idx0_3 (t : Fin cfg0.N) : win0_3.index t (0 : Fin 2) = t.val ∧ win0_3.index t (1 : Fin 2) = 0 := (idx0 t).2.2.2.1
theorem idx0_4 (t : Fin cfg0.N) : win0_4.index t (0 : Fin 2) = t.val ∧ win0_4.index t (1 : Fin 2) = 0 := (idx0 t).2.2.2.2.1
theorem idx0_5 (t : Fin cfg0.N) : win0_5.index t (0 : Fin 2) = t.val ∧ win0_5.index t (1 : Fin 2) = 0 := (idx0 t).2.2.2.2.2

theorem mem_blk0_3 (t : Fin cfg0.N) (i : S100000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v9_0).slice (win0_3.rect t)).set ↔ _
  rw [View.set_slice_whole, Rect.mem_set_unit]
  exact Iff.rfl

theorem cover0_3' (i : S100000x1.Idx) :
    ∃ t : Fin cfg0.N, (cfg0.win 3).flush t = true ∧ i ∈ ((cfg0.win 3).blk t).view.set := by
  have h0 : (i 0).val < 100000 := (i 0).isLt
  have h1 : (i 1).val < 1 := (i 1).isLt
  have hlt : (i 0).val / 5000 < cfg0.N := by
    rw [show cfg0.N = 20 from N_0]; omega
  refine ⟨⟨(i 0).val / 5000, hlt⟩, flush0_3 _, ?_⟩
  rw [mem_blk0_3]
  obtain ⟨e0, e1⟩ := idx0_3 ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hlt⟩ (1 : Fin 2) * 1 ≤ (i 1).val ∧ (i 1).val < win0_3.index ⟨(i 0).val / 5000, hlt⟩ (1 : Fin 2) * 1 + 1
    rw [e1]; omega

theorem mem_blk0_4 (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v9_1).slice (win0_4.rect t)).set ↔ _
  rw [View.set_slice_whole, Rect.mem_set_unit]
  exact Iff.rfl

theorem cover0_4' (i : S100000x1.Idx) :
    ∃ t : Fin cfg0.N, (cfg0.win 4).flush t = true ∧ i ∈ ((cfg0.win 4).blk t).view.set := by
  have h0 : (i 0).val < 100000 := (i 0).isLt
  have h1 : (i 1).val < 1 := (i 1).isLt
  have hlt : (i 0).val / 5000 < cfg0.N := by
    rw [show cfg0.N = 20 from N_0]; omega
  refine ⟨⟨(i 0).val / 5000, hlt⟩, flush0_4 _, ?_⟩
  rw [mem_blk0_4]
  obtain ⟨e0, e1⟩ := idx0_4 ⟨(i 0).val / 5000, hlt⟩
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hlt⟩ (1 : Fin 2) * 1 ≤ (i 1).val ∧ (i 1).val < win0_4.index ⟨(i 0).val / 5000, hlt⟩ (1 : Fin 2) * 1 + 1
    rw [e1]; omega

theorem mem_blk0_5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v9_2).slice (win0_5.rect t)).set ↔ _
  rw [View.set_slice_whole, Rect.mem_set_unit]
  exact Iff.rfl

theorem cover0_5' (i : S100000x64.Idx) :
    ∃ t : Fin cfg0.N, (cfg0.win 5).flush t = true ∧ i ∈ ((cfg0.win 5).blk t).view.set := by
  have h0 : (i 0).val < 100000 := (i 0).isLt
  have h1 : (i 1).val < 64 := (i 1).isLt
  have hlt : (i 0).val / 5000 < cfg0.N := by
    rw [show cfg0.N = 20 from N_0]; omega
  refine ⟨⟨(i 0).val / 5000, hlt⟩, flush0_5 _, ?_⟩
  rw [mem_blk0_5]
  obtain ⟨e0, e1⟩ := idx0_5 ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-! ## The three output arrays when the region ends -/

/-- The first output: the normalisation column of the first degree column. -/
theorem arr0_3 (c : Dev nD) : (dat0 V c).arrAt 3 cfg0.N = Cert.Forms.normCol (R := 100000) (V c main_v4) :=
  (dat0 V c).arrAt_eq_of_cover 3 _ (fun t _ => flushed0_3 V c t) cover0_3'

/-- The second output: the normalisation column of the second degree column. -/
theorem arr0_4 (c : Dev nD) : (dat0 V c).arrAt 4 cfg0.N = Cert.Forms.normCol (R := 100000) (V c main_v8) :=
  (dat0 V c).arrAt_eq_of_cover 4 _ (fun t _ => flushed0_4 V c t) cover0_4'

/-- The third output: the features, each row scaled by the first normalisation. -/
theorem arr0_5 (c : Dev nD) : (dat0 V c).arrAt 5 cfg0.N
    = Cert.Forms.scaleRows (R := 100000) (N := 64) (V c main_arg0) (Cert.Forms.normCol (V c main_v4)) :=
  (dat0 V c).arrAt_eq_of_cover 5 _ (fun t _ => flushed0_5 V c t) cover0_5'

end Cert.KernelIdeal.Hand
end
-- ==== Proof.Region1.lean ====
import proofs.«119618_j74122545594672_1_alg».proof.Proof.Gen.KernelIdeal.Frame
import proofs.«119618_j74122545594672_1_alg».proof.Proof.LibNormForms
import proofs.«119618_j74122545594672_1_alg».proof.Proof.Region0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-!
  A node-update region: the dense step on the aggregated features, then the scaling that prepares the next gather.

  At point t the three row-indexed windows hold rows 5000·t … 5000·t + 4999 of their arrays; the weight matrix and the
  bias row are held whole at every point. The body scales the block's rows by the second normalisation, multiplies by the
  weights, adds the bias row and clips at zero; the second output scales that by the first normalisation. Entry (p, q) of the
  result depends only on row p of the row-indexed operands, so block t of the output array is block t of one
  whole-array function of the arrays the region is entered with, and the 20 blocks tile the 100000 rows.
-/

variable (V : (c : Dev nD) → (b : Ref sig .tc) → Buf (Elt Ideal) ((c : Thread nD τ).loc b))

/-- The row-indexed windows are at block (t, 0) at point t; the weights and the bias row at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_6.index t (0 : Fin 2) = t.val ∧ win1_6.index t (1 : Fin 2) = 0) :=
  (by decide +kernel : ∀ t : Fin grid1.N, _)

theorem idx1_6 (t : Fin cfg1.N) : win1_6.index t (0 : Fin 2) = t.val ∧ win1_6.index t (1 : Fin 2) = 0 := (idx1 t).2.2.2.2.2

theorem lt1 (t : Fin cfg1.N) : t.val < 20 := by
  have h := t.isLt
  have hN : cfg1.N = 20 := N_1
  omega

/-! ## The blocks of the input windows -/

theorem iblk1_0_apply (c : Dev nD) (t : Fin cfg1.N) (p : Fin 5000) (q : Fin 64) :
    (iblk1 V c 0 t : Vec Ideal S5000x64 .f32) (ix2 p q)
      = (V c main_v20 : S100000x64.Idx → EReal) (ix2 (blockRow t.val (lt1 t) p) q) := by
  obtain ⟨⟨e0, e1⟩, -⟩ := idx1 t
  show V c main_v20 (((cfg1.win 0).blk t).view.emb (ix2 p q)) = _
  refine congrArg (V c main_v20) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

theorem iblk1_1_apply (c : Dev nD) (t : Fin cfg1.N) (p : Fin 5000) :
    (iblk1 V c 1 t : Vec Ideal S5000x1 .f32) (ix2 p (0 : Fin 1))
      = (V c main_v9_1 : S100000x1.Idx → EReal) (ix2 (blockRow t.val (lt1 t) p) (0 : Fin 1)) := by
  obtain ⟨-, ⟨e0, e1⟩, -⟩ := idx1 t
  show V c main_v9_1 (((cfg1.win 1).blk t).view.emb (ix2 p (0 : Fin 1))) = _
  refine congrArg (V c main_v9_1) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

theorem iblk1_2_apply (c : Dev nD) (t : Fin cfg1.N) (p : Fin 5000) :
    (iblk1 V c 2 t : Vec Ideal S5000x1 .f32) (ix2 p (0 : Fin 1))
      = (V c main_v9_0 : S100000x1.Idx → EReal) (ix2 (blockRow t.val (lt1 t) p) (0 : Fin 1)) := by
  obtain ⟨-, -, ⟨e0, e1⟩, -⟩ := idx1 t
  show V c main_v9_0 (((cfg1.win 2).blk t).view.emb (ix2 p (0 : Fin 1))) = _
  refine congrArg (V c main_v9_0) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- The weights' window holds the whole matrix at every point. -/
theorem iblk1_3_eq (c : Dev nD) (t : Fin cfg1.N) :
    (iblk1 V c 3 t : Vec Ideal S64x64 .f32) = (V c main_arg1 : S64x64.Idx → EReal) := by
  obtain ⟨-, -, -, ⟨e0, e1⟩, -⟩ := idx1 t
  funext j
  show V c main_arg1 (((cfg1.win 3).blk t).view.emb j) = V c main_arg1 j
  refine congrArg (V c main_arg1) (funext fun a => Fin.ext ?_)
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

/-- The bias window holds the whole row at every point. -/
theorem iblk1_4_eq (c : Dev nD) (t : Fin cfg1.N) :
    (iblk1 V c 4 t : Vec Ideal S1x64 .f32) = (V c main_v10 : S1x64.Idx → EReal) := by
  obtain ⟨-, -, -, -, ⟨e0, e1⟩, -⟩ := idx1 t
  funext j
  show V c main_v10 (((cfg1.win 4).blk t).view.emb j) = V c main_v10 j
  refine congrArg (V c main_v10) (funext fun a => Fin.ext ?_)
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega

/-! ## Where the output window's blocks lie -/

theorem emb1_6 (t : Fin cfg1.N) (p : Fin 5000) (q : Fin 64) :
    (((cfg1.win 6).blk t).view.emb (ix2 p q) : S100000x64.Idx) = ix2 (blockRow t.val (lt1 t) p) q := by
  obtain ⟨e0, e1⟩ := idx1_6 t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 64 + 1 * q.val = q.val; rw [e1]; omega

/-! ## The body's stored values -/

theorem pay1_1 (v0 : Vec Ideal S5000x64 .f32) (v2 : Vec Ideal S5000x1 .f32) (v6 : Vec Ideal S64x64 .f32) (v10 : Vec Ideal S1x64 .f32) :
    k1_pay1 (F := Ideal) v0 v2 v6 v10
      = Cert.LayerForms.scaleDotBiasRelu (R := 5000) (K := 64) (N := 64) (φ := .f32) v0 v2 v6 v10 := by
  unfold k1_pay1
  have h := Cert.LayerForms.body_scaleDotBiasRelu (R := 5000) (K := 64) (N := 64) dot_S5000x64_S64x64_S5000x64_1_0_0_1_n_n rfl
    v0 v2 (truncf .bf16 v6 bitsLt_bf16_f32) v10 shapeCasts_S5000x64_S5000x64 shapeCasts_S5000x1_S5000x1 rfl
    shapeCasts_S1x64_S1x64 broadcasts_S5000x1_S5000x64 broadcasts_S1x64_S5000x64 bitsLt_bf16_f32
  simp only [shapeCast_self] at h ⊢
  exact h

theorem pay1_2 (v0 : Vec Ideal S5000x64 .f32) (v2 : Vec Ideal S5000x1 .f32) (v6 : Vec Ideal S64x64 .f32) (v10 : Vec Ideal S1x64 .f32)
    (v17 : Vec Ideal S5000x1 .f32) :
    k1_pay2 (F := Ideal) v0 v2 v6 v10 v17
      = Cert.Forms.scaleRows (Cert.LayerForms.scaleDotBiasRelu (R := 5000) (K := 64) (N := 64) (φ := .f32) v0 v2 v6 v10) v17 := by
  unfold k1_pay2
  rw [pay1_1, shapeCast_self]
  exact Cert.Forms.body_scaleRows _ _ _

/-! ## What each point writes back -/

theorem flushed1_6 (c : Dev nD) (t : Fin cfg1.N) :
    (dat1 V c).flushed 6 t = ((cfg1.win 6).blk t).view.read (Elt Ideal)
      (Cert.Forms.scaleRows (R := 100000) (N := 64) (Cert.LayerForms.scaleDotBiasRelu (R := 100000) (K := 64) (N := 64) (φ := .f32) (V c main_v20) (V c main_v9_1) (V c main_arg1) (V c main_v10)) (V c main_v9_0)) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x64) hz, View.ld_unit_zero (S := S64x64) hz,
    View.ld_unit_zero (S := S1x64) hz]
  rw [pay1_2]
  funext j
  obtain ⟨p, q, rfl⟩ : ∃ (p : Fin 5000) (q : Fin 64), j = ix2 p q := ⟨j 0, j 1, eq_ix2 j⟩
  show (Cert.Forms.scaleRows (R := 5000) (N := 64) (Cert.LayerForms.scaleDotBiasRelu (R := 5000) (K := 64) (N := 64) (φ := .f32) (iblk1 V c 0 t) (iblk1 V c 1 t) (iblk1 V c 3 t) (iblk1 V c 4 t)) (iblk1 V c 2 t)) (ix2 p q)
    = (Cert.Forms.scaleRows (R := 100000) (N := 64) (Cert.LayerForms.scaleDotBiasRelu (R := 100000) (K := 64) (N := 64) (φ := .f32) (V c main_v20) (V c main_v9_1) (V c main_arg1) (V c main_v10)) (V c main_v9_0)) (((cfg1.win 6).blk t).view.emb (ix2 p q))
  rw [emb1_6]
  exact Cert.Forms.scaleRows_rows (blockRow t.val (lt1 t)) _ _ _ _
    (fun p k => Cert.LayerForms.scaleDotBiasRelu_rows (blockRow t.val (lt1 t)) (V c main_v20) (V c main_v9_1) (V c main_arg1) (V c main_v10)
      (iblk1 V c 0 t) (iblk1 V c 1 t) (iblk1 V c 3 t) (iblk1 V c 4 t)
      (fun p k => iblk1_0_apply V c t p k) (fun p => iblk1_1_apply V c t p) (iblk1_3_eq V c t) (iblk1_4_eq V c t) p k)
    (fun p => iblk1_2_apply V c t p) p q

/-! ## The 20 blocks tile the rows -/

theorem mem_blk1_6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v21_1).slice (win1_6.rect t)).set ↔ _
  rw [View.set_slice_whole, Rect.mem_set_unit]
  exact Iff.rfl

theorem cover1_6' (i : S100000x64.Idx) :
    ∃ t : Fin cfg1.N, (cfg1.win 6).flush t = true ∧ i ∈ ((cfg1.win 6).blk t).view.set := by
  have h0 : (i 0).val < 100000 := (i 0).isLt
  have h1 : (i 1).val < 64 := (i 1).isLt
  have hlt : (i 0).val / 5000 < cfg1.N := by
    rw [show cfg1.N = 20 from N_1]; omega
  refine ⟨⟨(i 0).val / 5000, hlt⟩, flush1_6 _, ?_⟩
  rw [mem_blk1_6]
  obtain ⟨e0, e1⟩ := idx1_6 ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    rw [e1]; omega

/-! ## The output array when the region ends -/

theorem arr1_6 (c : Dev nD) : (dat1 V c).arrAt 6 cfg1.N
    = Cert.Forms.scaleRows (R := 100000) (N := 64) (Cert.LayerForms.scaleDotBiasRelu (R := 100000) (K := 64) (N := 64) (φ := .f32) (V c main_v20) (V c main_v9_1) (V c main_arg1) (V c main_v10)) (V c main_v9_0) :=
  (dat1 V c).arrAt_eq_of_cover 6 _ (fun t _ => flushed1_6 V c t) cover1_6'

end Cert.KernelIdeal.Hand
end
-- ==== Proof.Region2.lean ====
import proofs.«119618_j74122545594672_1_alg».proof.Proof.Gen.KernelIdeal.Frame
import proofs.«119618_j74122545594672_1_alg».proof.Proof.LibNormForms
import proofs.«119618_j74122545594672_1_alg».proof.Proof.Region0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-!
  A node-update region: the dense step on the aggregated features.

  At point t the three row-indexed windows hold rows 5000·t … 5000·t + 4999 of their arrays; the weight matrix and the
  bias row are held whole at every point. The body scales the block's rows by the second normalisation, multiplies by the
  weights, adds the bias row and clips at zero. Entry (p, q) of the
  result depends only on row p of the row-indexed operands, so block t of the output array is block t of one
  whole-array function of the arrays the region is entered with, and the 20 blocks tile the 100000 rows.
-/

variable (V : (c : Dev nD) → (b : Ref sig .tc) → Buf (Elt Ideal) ((c : Thread nD τ).loc b))

/-- The row-indexed windows are at block (t, 0) at point t; the weights and the bias row at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

theorem idx2_5 (t : Fin cfg2.N) : win2_5.index t (0 : Fin 2) = t.val ∧ win2_5.index t (1 : Fin 2) = 0 := (idx2 t).2.2.2.2.2

theorem lt2 (t : Fin cfg2.N) : t.val < 20 := by
  have h := t.isLt
  have hN : cfg2.N = 20 := N_2
  omega

/-! ## The blocks of the input windows -/

theorem iblk2_0_apply (c : Dev nD) (t : Fin cfg2.N) (p : Fin 5000) (q : Fin 64) :
    (iblk2 V c 0 t : Vec Ideal S5000x64 .f32) (ix2 p q)
      = (V c main_v31 : S100000x64.Idx → EReal) (ix2 (blockRow t.val (lt2 t) p) q) := by
  obtain ⟨⟨e0, e1⟩, -⟩ := idx2 t
  show V c main_v31 (((cfg2.win 0).blk t).view.emb (ix2 p q)) = _
  refine congrArg (V c main_v31) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 64 + 1 * q.val = q.val; rw [e1]; omega

theorem iblk2_1_apply (c : Dev nD) (t : Fin cfg2.N) (p : Fin 5000) :
    (iblk2 V c 1 t : Vec Ideal S5000x1 .f32) (ix2 p (0 : Fin 1))
      = (V c main_v9_1 : S100000x1.Idx → EReal) (ix2 (blockRow t.val (lt2 t) p) (0 : Fin 1)) := by
  obtain ⟨-, ⟨e0, e1⟩, -⟩ := idx2 t
  show V c main_v9_1 (((cfg2.win 1).blk t).view.emb (ix2 p (0 : Fin 1))) = _
  refine congrArg (V c main_v9_1) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

theorem iblk2_2_apply (c : Dev nD) (t : Fin cfg2.N) (p : Fin 5000) :
    (iblk2 V c 2 t : Vec Ideal S5000x1 .f32) (ix2 p (0 : Fin 1))
      = (V c main_v9_0 : S100000x1.Idx → EReal) (ix2 (blockRow t.val (lt2 t) p) (0 : Fin 1)) := by
  obtain ⟨-, -, ⟨e0, e1⟩, -⟩ := idx2 t
  show V c main_v9_0 (((cfg2.win 2).blk t).view.emb (ix2 p (0 : Fin 1))) = _
  refine congrArg (V c main_v9_0) (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 1 + 1 * 0 = 0; rw [e1]

/-- The weights' window holds the whole matrix at every point. -/
theorem iblk2_3_eq (c : Dev nD) (t : Fin cfg2.N) :
    (iblk2 V c 3 t : Vec Ideal S64x64 .f32) = (V c main_arg1 : S64x64.Idx → EReal) := by
  obtain ⟨-, -, -, ⟨e0, e1⟩, -⟩ := idx2 t
  funext j
  show V c main_arg1 (((cfg2.win 3).blk t).view.emb j) = V c main_arg1 j
  refine congrArg (V c main_arg1) (funext fun a => Fin.ext ?_)
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

/-- The bias window holds the whole row at every point. -/
theorem iblk2_4_eq (c : Dev nD) (t : Fin cfg2.N) :
    (iblk2 V c 4 t : Vec Ideal S1x64 .f32) = (V c main_v10 : S1x64.Idx → EReal) := by
  obtain ⟨-, -, -, -, ⟨e0, e1⟩, -⟩ := idx2 t
  funext j
  show V c main_v10 (((cfg2.win 4).blk t).view.emb j) = V c main_v10 j
  refine congrArg (V c main_v10) (funext fun a => Fin.ext ?_)
  match a with
  | ⟨0, _⟩ => show win2_4.index t (0 : Fin 2) * 1 + 1 * (j 0).val = (j 0).val; rw [e0]; omega
  | ⟨1, _⟩ => show win2_4.index t (1 : Fin 2) * 64 + 1 * (j 1).val = (j 1).val; rw [e1]; omega

/-! ## Where the output window's blocks lie -/

theorem emb2_5 (t : Fin cfg2.N) (p : Fin 5000) (q : Fin 64) :
    (((cfg2.win 5).blk t).view.emb (ix2 p q) : S100000x64.Idx) = ix2 (blockRow t.val (lt2 t) p) q := by
  obtain ⟨e0, e1⟩ := idx2_5 t
  refine funext fun a => Fin.ext ?_
  match a with
  | ⟨0, _⟩ => show win2_5.index t (0 : Fin 2) * 5000 + 1 * p.val = 5000 * t.val + p.val; rw [e0]; omega
  | ⟨1, _⟩ => show win2_5.index t (1 : Fin 2) * 64 + 1 * q.val = q.val; rw [e1]; omega

/-! ## The body's stored values -/

theorem pay2_1 (v0 : Vec Ideal S5000x64 .f32) (v2 : Vec Ideal S5000x1 .f32) (v6 : Vec Ideal S64x64 .f32) (v10 : Vec Ideal S1x64 .f32) :
    k2_pay1 (F := Ideal) v0 v2 v6 v10
      = Cert.LayerForms.scaleDotBiasRelu (R := 5000) (K := 64) (N := 64) (φ := .f32) v0 v2 v6 v10 := by
  unfold k2_pay1
  have h := Cert.LayerForms.body_scaleDotBiasRelu (R := 5000) (K := 64) (N := 64) dot_S5000x64_S64x64_S5000x64_1_0_0_1_n_n rfl
    v0 v2 (truncf .bf16 v6 bitsLt_bf16_f32) v10 shapeCasts_S5000x64_S5000x64 shapeCasts_S5000x1_S5000x1 rfl
    shapeCasts_S1x64_S1x64 broadcasts_S5000x1_S5000x64 broadcasts_S1x64_S5000x64 bitsLt_bf16_f32
  simp only [shapeCast_self] at h ⊢
  exact h

theorem pay2_2 (v0 : Vec Ideal S5000x64 .f32) (v2 : Vec Ideal S5000x1 .f32) (v6 : Vec Ideal S64x64 .f32) (v10 : Vec Ideal S1x64 .f32)
    (v17 : Vec Ideal S5000x1 .f32) :
    k2_pay2 (F := Ideal) v0 v2 v6 v10 v17
      = Cert.Forms.scaleRows (Cert.LayerForms.scaleDotBiasRelu (R := 5000) (K := 64) (N := 64) (φ := .f32) v0 v2 v6 v10) v17 := by
  unfold k2_pay2
  rw [pay2_1, shapeCast_self]
  exact Cert.Forms.body_scaleRows _ _ _

/-! ## What each point writes back -/

theorem flushed2_5 (c : Dev nD) (t : Fin cfg2.N) :
    (dat2 V c).flushed 5 t = ((cfg2.win 5).blk t).view.read (Elt Ideal)
      (Cert.LayerForms.scaleDotBiasRelu (R := 100000) (K := 64) (N := 64) (φ := .f32) (V c main_v31) (V c main_v9_1) (V c main_arg1) (V c main_v10)) := by
  show (cfg2.win 5).cut (grid2.coords t) ((dat2 V c).after 5 t) = _
  rw [after2_5]
  unfold out2_5
  rw [View.canon_unit_zero hz]
  simp only [View.ld_unit_zero (S := S5000x1) hz, View.ld_unit_zero (S := S5000x64) hz, View.ld_unit_zero (S := S64x64) hz,
    View.ld_unit_zero (S := S1x64) hz]
  rw [pay2_1]
  funext j
  obtain ⟨p, q, rfl⟩ : ∃ (p : Fin 5000) (q : Fin 64), j = ix2 p q := ⟨j 0, j 1, eq_ix2 j⟩
  show (Cert.LayerForms.scaleDotBiasRelu (R := 5000) (K := 64) (N := 64) (φ := .f32) (iblk2 V c 0 t) (iblk2 V c 1 t) (iblk2 V c 3 t) (iblk2 V c 4 t)) (ix2 p q)
    = (Cert.LayerForms.scaleDotBiasRelu (R := 100000) (K := 64) (N := 64) (φ := .f32) (V c main_v31) (V c main_v9_1) (V c main_arg1) (V c main_v10)) (((cfg2.win 5).blk t).view.emb (ix2 p q))
  rw [emb2_5]
  exact Cert.LayerForms.scaleDotBiasRelu_rows (blockRow t.val (lt2 t)) (V c main_v31) (V c main_v9_1) (V c main_arg1) (V c main_v10)
      (iblk2 V c 0 t) (iblk2 V c 1 t) (iblk2 V c 3 t) (iblk2 V c 4 t)
      (fun p k => iblk2_0_apply V c t p k) (fun p => iblk2_1_apply V c t p) (iblk2_3_eq V c t) (iblk2_4_eq V c t) p q

/-! ## The 20 blocks tile the rows -/

theorem mem_blk2_5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v32_0).slice (win2_5.rect t)).set ↔ _
  rw [View.set_slice_whole, Rect.mem_set_unit]
  exact Iff.rfl

theorem cover2_5' (i : S100000x64.Idx) :
    ∃ t : Fin cfg2.N, (cfg2.win 5).flush t = true ∧ i ∈ ((cfg2.win 5).blk t).view.set := by
  have h0 : (i 0).val < 100000 := (i 0).isLt
  have h1 : (i 1).val < 64 := (i 1).isLt
  have hlt : (i 0).val / 5000 < cfg2.N := by
    rw [show cfg2.N = 20 from N_2]; omega
  refine ⟨⟨(i 0).val / 5000, hlt⟩, flush2_5 _, ?_⟩
  rw [mem_blk2_5]
  obtain ⟨e0, e1⟩ := idx2_5 ⟨(i 0).val / 5000, hlt⟩
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e1]; omega

/-! ## The output array when the region ends -/

theorem arr2_5 (c : Dev nD) : (dat2 V c).arrAt 5 cfg2.N
    = Cert.LayerForms.scaleDotBiasRelu (R := 100000) (K := 64) (N := 64) (φ := .f32) (V c main_v31) (V c main_v9_1) (V c main_arg1) (V c main_v10) :=
  (dat2 V c).arrAt_eq_of_cover 5 _ (fun t _ => flushed2_5 V c t) cover2_5'

end Cert.KernelIdeal.Hand
end
-- ==== Proof.Stages.lean ====
import proofs.«119618_j74122545594672_1_alg».proof.Proof.Gen.KernelIdeal.Frame
import proofs.«119618_j74122545594672_1_alg».proof.Proof.LibNormForms
import proofs.«119618_j74122545594672_1_alg».proof.Proof.Net
import proofs.«119618_j74122545594672_1_alg».proof.Proof.Region0
import proofs.«119618_j74122545594672_1_alg».proof.Proof.Region1
import proofs.«119618_j74122545594672_1_alg».proof.Proof.Region2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-!
  The buffers' contents at each boundary of the program, read back to the launch memory.

  Before the first region the host counts the two degree columns. The first region leaves the two normalisation
  columns and the features scaled by the out-normalisation. The host then aggregates those and makes the bias a row;
  the second region leaves the first layer's output scaled for the next gather; the host aggregates again; the third
  region leaves the second layer's output, which is the program's result. No stretch and no region writes an argument
  array, and a region leaves the arrays of its input windows as it found them.
-/

variable (m : (ℓ : Loc nD τ sig) → Buf (Elt Ideal) ℓ) (ρ : Dev nD → PrngReg)

/-! ## Entering the first region -/

theorem V1_v4 (c : Dev nD) : V1 m ρ c main_v4 = degCol (m ((c.tc : Thread nD τ).loc main_arg3)) := by
  dsimp only [V1, W1, hostOps0]; after_results <;> rfl
theorem V1_v8 (c : Dev nD) : V1 m ρ c main_v8 = degCol (m ((c.tc : Thread nD τ).loc main_arg4)) := by
  dsimp only [V1, W1, hostOps0]; after_results <;> rfl
theorem V1_arg (c : Dev nD) :
    V1 m ρ c main_arg0 = m ((c.tc : Thread nD τ).loc main_arg0) ∧ V1 m ρ c main_arg1 = m ((c.tc : Thread nD τ).loc main_arg1) ∧ V1 m ρ c main_arg2 = m ((c.tc : Thread nD τ).loc main_arg2)
    ∧ V1 m ρ c main_arg3 = m ((c.tc : Thread nD τ).loc main_arg3) ∧ V1 m ρ c main_arg4 = m ((c.tc : Thread nD τ).loc main_arg4) := by
  refine ⟨?_, ?_, ?_, ?_, ?_⟩ <;> (dsimp only [V1, W1, hostOps0]; after_results <;> rfl)

/-! ## Leaving the first region -/

theorem W2_v9_0 (c : Dev nD) : W2 m ρ c (Proc.devRef .tc main_v9_0) = Cert.Forms.normCol (R := 100000) (degCol (m ((c.tc : Thread nD τ).loc main_arg3))) :=
  (W2_arr m ρ c 3).trans ((arr0_3 (V1 m ρ) c).trans (by rw [V1_v4]))
theorem W2_v9_1 (c : Dev nD) : W2 m ρ c (Proc.devRef .tc main_v9_1) = Cert.Forms.normCol (R := 100000) (degCol (m ((c.tc : Thread nD τ).loc main_arg4))) :=
  (W2_arr m ρ c 4).trans ((arr0_4 (V1 m ρ) c).trans (by rw [V1_v8]))
theorem W2_v9_2 (c : Dev nD) : W2 m ρ c (Proc.devRef .tc main_v9_2)
    = Cert.Forms.scaleRows (R := 100000) (N := 64) (m ((c.tc : Thread nD τ).loc main_arg0)) (Cert.Forms.normCol (R := 100000) (degCol (m ((c.tc : Thread nD τ).loc main_arg3)))) :=
  (W2_arr m ρ c 5).trans ((arr0_5 (V1 m ρ) c).trans (by rw [V1_v4, (V1_arg m ρ c).1]))
theorem W2_arg1 (c : Dev nD) : W2 m ρ c (Proc.devRef .tc main_arg1) = m ((c.tc : Thread nD τ).loc main_arg1) :=
  (W2_of_ne m ρ c main_arg1 (by decide)).trans (V1_arg m ρ c).2.1
theorem W2_arg2 (c : Dev nD) : W2 m ρ c (Proc.devRef .tc main_arg2) = m ((c.tc : Thread nD τ).loc main_arg2) :=
  (W2_of_ne m ρ c main_arg2 (by decide)).trans (V1_arg m ρ c).2.2.1
theorem W2_arg3 (c : Dev nD) : W2 m ρ c (Proc.devRef .tc main_arg3) = m ((c.tc : Thread nD τ).loc main_arg3) :=
  (W2_of_ne m ρ c main_arg3 (by decide)).trans (V1_arg m ρ c).2.2.2.1
theorem W2_arg4 (c : Dev nD) : W2 m ρ c (Proc.devRef .tc main_arg4) = m ((c.tc : Thread nD τ).loc main_arg4) :=
  (W2_of_ne m ρ c main_arg4 (by decide)).trans (V1_arg m ρ c).2.2.2.2

/-! ## Entering the second region -/

set_option maxHeartbeats 1000000 in
theorem V3_v20_raw (c : Dev nD) : V3 m ρ c main_v20
    = aggOf (W2 m ρ c (Proc.devRef .tc main_arg3)) (W2 m ρ c (Proc.devRef .tc main_arg4)) (W2 m ρ c (Proc.devRef .tc main_v9_2)) := by
  dsimp only [V3, W3, hostOps1]; after_results <;> rfl

theorem V3_v20 (c : Dev nD) : V3 m ρ c main_v20
    = aggOf (m ((c.tc : Thread nD τ).loc main_arg3)) (m ((c.tc : Thread nD τ).loc main_arg4)) (Cert.Forms.scaleRows (R := 100000) (N := 64) (m ((c.tc : Thread nD τ).loc main_arg0)) (Cert.Forms.normCol (R := 100000) (degCol (m ((c.tc : Thread nD τ).loc main_arg3))))) := by
  rw [V3_v20_raw, W2_v9_2, W2_arg3, W2_arg4]
theorem V3_v10 (c : Dev nD) : V3 m ρ c main_v10 = Cert.Row.rowOf (m ((c.tc : Thread nD τ).loc main_arg2)) := by
  dsimp only [V3, W3, hostOps1]; after_results
  rw [W2_arg2]
  exact Cert.Row.shapeCast_row _ shapeCasts_S64_S1x64
theorem V3_v9_1 (c : Dev nD) : V3 m ρ c main_v9_1 = Cert.Forms.normCol (R := 100000) (degCol (m ((c.tc : Thread nD τ).loc main_arg4))) := by
  dsimp only [V3, W3, hostOps1]; after_results
  exact W2_v9_1 m ρ c
theorem V3_v9_0 (c : Dev nD) : V3 m ρ c main_v9_0 = Cert.Forms.normCol (R := 100000) (degCol (m ((c.tc : Thread nD τ).loc main_arg3))) := by
  dsimp only [V3, W3, hostOps1]; after_results
  exact W2_v9_0 m ρ c
theorem V3_arg1 (c : Dev nD) : V3 m ρ c main_arg1 = m ((c.tc : Thread nD τ).loc main_arg1) := by
  dsimp only [V3, W3, hostOps1]; after_results
  exact W2_arg1 m ρ c
theorem V3_arg3 (c : Dev nD) : V3 m ρ c main_arg3 = m ((c.tc : Thread nD τ).loc main_arg3) := by
  dsimp only [V3, W3, hostOps1]; after_results
  exact W2_arg3 m ρ c
theorem V3_arg4 (c : Dev nD) : V3 m ρ c main_arg4 = m ((c.tc : Thread nD τ).loc main_arg4) := by
  dsimp only [V3, W3, hostOps1]; after_results
  exact W2_arg4 m ρ c

/-! ## Leaving the second region -/

/-- The first layer's output, scaled for the next gather. -/
theorem W4_v21_1 (c : Dev nD) : W4 m ρ c (Proc.devRef .tc main_v21_1)
    = Cert.Forms.scaleRows (R := 100000) (N := 64)
        (layer (m ((c.tc : Thread nD τ).loc main_arg3)) (m ((c.tc : Thread nD τ).loc main_arg4)) (m ((c.tc : Thread nD τ).loc main_arg1)) (m ((c.tc : Thread nD τ).loc main_arg2)) (Cert.Forms.scaleRows (R := 100000) (N := 64) (m ((c.tc : Thread nD τ).loc main_arg0)) (Cert.Forms.normCol (R := 100000) (degCol (m ((c.tc : Thread nD τ).loc main_arg3))))))
        (Cert.Forms.normCol (R := 100000) (degCol (m ((c.tc : Thread nD τ).loc main_arg3)))) :=
  (W4_arr m ρ c 6).trans ((arr1_6 (V3 m ρ) c).trans (by rw [V3_v20, V3_v9_1, V3_arg1, V3_v10, V3_v9_0]; rfl))
theorem W4_v9_1 (c : Dev nD) : W4 m ρ c (Proc.devRef .tc main_v9_1) = Cert.Forms.normCol (R := 100000) (degCol (m ((c.tc : Thread nD τ).loc main_arg4))) :=
  (W4_arr m ρ c 1).trans ((((dat1 (V3 m ρ) c).arrAt_in 1 rfl _).trans (A_eq1 (V3 m ρ) c 1)).trans (V3_v9_1 m ρ c))
theorem W4_arg1 (c : Dev nD) : W4 m ρ c (Proc.devRef .tc main_arg1) = m ((c.tc : Thread nD τ).loc main_arg1) :=
  (W4_arr m ρ c 3).trans ((((dat1 (V3 m ρ) c).arrAt_in 3 rfl _).trans (A_eq1 (V3 m ρ) c 3)).trans (V3_arg1 m ρ c))
theorem W4_v10 (c : Dev nD) : W4 m ρ c (Proc.devRef .tc main_v10) = Cert.Row.rowOf (m ((c.tc : Thread nD τ).loc main_arg2)) :=
  (W4_arr m ρ c 4).trans ((((dat1 (V3 m ρ) c).arrAt_in 4 rfl _).trans (A_eq1 (V3 m ρ) c 4)).trans (V3_v10 m ρ c))
theorem W4_arg3 (c : Dev nD) : W4 m ρ c (Proc.devRef .tc main_arg3) = m ((c.tc : Thread nD τ).loc main_arg3) :=
  (W4_of_ne m ρ c main_arg3 (by decide)).trans (V3_arg3 m ρ c)
theorem W4_arg4 (c : Dev nD) : W4 m ρ c (Proc.devRef .tc main_arg4) = m ((c.tc : Thread nD τ).loc main_arg4) :=
  (W4_of_ne m ρ c main_arg4 (by decide)).trans (V3_arg4 m ρ c)

/-! ## Entering the third region -/

set_option maxHeartbeats 1000000 in
theorem V5_v31_raw (c : Dev nD) : V5 m ρ c main_v31
    = aggOf (W4 m ρ c (Proc.devRef .tc main_arg3)) (W4 m ρ c (Proc.devRef .tc main_arg4)) (W4 m ρ c (Proc.devRef .tc main_v21_1)) := by
  dsimp only [V5, W5, hostOps2]; after_results <;> rfl

theorem V5_v31 (c : Dev nD) : V5 m ρ c main_v31
    = aggOf (m ((c.tc : Thread nD τ).loc main_arg3)) (m ((c.tc : Thread nD τ).loc main_arg4)) (Cert.Forms.scaleRows (R := 100000) (N := 64)
        (layer (m ((c.tc : Thread nD τ).loc main_arg3)) (m ((c.tc : Thread nD τ).loc main_arg4)) (m ((c.tc : Thread nD τ).loc main_arg1)) (m ((c.tc : Thread nD τ).loc main_arg2)) (Cert.Forms.scaleRows (R := 100000) (N := 64) (m ((c.tc : Thread nD τ).loc main_arg0)) (Cert.Forms.normCol (R := 100000) (degCol (m ((c.tc : Thread nD τ).loc main_arg3))))))
        (Cert.Forms.normCol (R := 100000) (degCol (m ((c.tc : Thread nD τ).loc main_arg3))))) := by
  rw [V5_v31_raw, W4_v21_1, W4_arg3, W4_arg4]
theorem V5_v9_1 (c : Dev nD) : V5 m ρ c main_v9_1 = Cert.Forms.normCol (R := 100000) (degCol (m ((c.tc : Thread nD τ).loc main_arg4))) := by
  dsimp only [V5, W5, hostOps2]; after_results
  exact W4_v9_1 m ρ c
theorem V5_arg1 (c : Dev nD) : V5 m ρ c main_arg1 = m ((c.tc : Thread nD τ).loc main_arg1) := by
  dsimp only [V5, W5, hostOps2]; after_results
  exact W4_arg1 m ρ c
theorem V5_v10 (c : Dev nD) : V5 m ρ c main_v10 = Cert.Row.rowOf (m ((c.tc : Thread nD τ).loc main_arg2)) := by
  dsimp only [V5, W5, hostOps2]; after_results
  exact W4_v10 m ρ c

/-! ## The result -/

/-- The result buffer ends at the network of the argument arrays. -/
theorem W6_result (c : Dev nD) : W6 m ρ c (Proc.devRef .tc main_v32_0)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 5).trans ((arr2_5 (V5 m ρ) c).trans (by rw [V5_v31, V5_v9_1, V5_arg1, V5_v10]; rfl))

end Cert.KernelIdeal.Hand
end
-- ==== Proof.RefSide.lean ====
/-
  The reference's result is the network of its argument arrays.

  The reference's run ends with its result at the composed term of its host operations. Reading that term from the
  inside out: each degree vector, clamped at one and raised to the power -1/2, then made a column, is the
  normalisation column of the degree column (the one law of real arithmetic this certificate needs); a product with
  such a column spread over the 64 feature columns is the row scaling; and the scaling by the in-normalisation, the
  `dot_general` with the weights, the bias spread over the rows and the clip at zero are together the dense step.
  What is left is the network, applied to the reference's own argument arrays.
-/
import proofs.«119618_j74122545594672_1_alg».proof.Proof.Gen.ReferenceIdeal.Read
import proofs.«119618_j74122545594672_1_alg».proof.Proof.Net

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

theorem result_eq (m : (ℓ : Loc nD τ sig) → Buf (Elt Ideal) ℓ) (c : Dev nD) :
    res_main_v54 (F := Ideal) m c
      = Cert.KernelIdeal.Hand.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold res_main_v54
  rw [Cert.Forms.host_normCol (R := 100000) _ bcast_S_S100000 bcast_S100000_S100000x1_0 Cert.KernelIdeal.Gen.shapeCasts_S100000_S100000x1,
    Cert.Forms.host_normCol (R := 100000) _ bcast_S_S100000 bcast_S100000_S100000x1_0 Cert.KernelIdeal.Gen.shapeCasts_S100000_S100000x1]
  rw [Cert.LayerForms.host_scaleDotBiasRelu (R := 100000) (K := 64) (N := 64) dot_S100000x64_S64x64_S100000x64_1_0_0_1_n_n rfl]
  rw [Cert.LayerForms.host_scaleDotBiasRelu (R := 100000) (K := 64) (N := 64) dot_S100000x64_S64x64_S100000x64_1_0_0_1_n_n rfl]
  rw [Cert.Forms.host_scaleRows (R := 100000) (N := 64), Cert.Forms.host_scaleRows (R := 100000) (N := 64)]
  rfl

end Cert.ReferenceIdeal.Hand

end
-- ==== Proof.lean ====
/-
  A two-layer graph convolution with symmetric degree normalisation: a tiled kernel against a plain array program.

  Both programs take node features (100000 × 64), a weight matrix (64 × 64), a bias (64) and two edge lists
  (1600000 sources and destinations). Each counts the nodes' out- and in-degrees, normalises a degree d to
  1/sqrt(max(d, 1)), and applies twice the layer  h ↦ relu((A(h ∘ c_out) ∘ c_in)·W + b),  where ∘ scales rows by a
  column and A gathers each edge's source row and adds it into the edge's destination row.

  The kernel does the dense work in three pipelined regions over 20 blocks of 5000 rows — the two normalisation
  columns and the first row scaling; then, twice, the dense step and the next row scaling — and leaves the gather and
  the scatter to the host. The reference does everything on whole arrays and writes the normalisation as a power,
  max(1, d)^(-1/2). Over the extended reals the two agree entry by entry:
    • the clamped degree lies in [1, +inf], where the power -1/2 and the reciprocal square root coincide;
    • a change of float format is the identity, and the unit's matrix product into a zero accumulator and the host's
      `dot_general` are the same finite sum;
    • an entry of each dense result depends only on the same row of the row-indexed operands, so the 20 row blocks
      the regions write are the blocks of one whole-array function, and they tile the 100000 rows;
    • the gather and the scatter-add are the same host operations on the same edge lists in both programs.
  No distributive law is used, so the finiteness of the inputs is not needed for the value, only carried by the claims.
  The idealisation rewrote nothing in the kernel, so the word-level kernel and its idealisation are the same text.
-/
import proofs.«119618_j74122545594672_1_alg».proof.Defs
import proofs.«119618_j74122545594672_1_alg».proof.Proof.Gen.Kernel
import proofs.«119618_j74122545594672_1_alg».proof.Proof.Gen.Kernel.Skeleton
import proofs.«119618_j74122545594672_1_alg».proof.Proof.Gen.Kernel.Launch
import proofs.«119618_j74122545594672_1_alg».proof.Proof.Gen.Kernel.Points
import proofs.«119618_j74122545594672_1_alg».proof.Proof.Gen.Kernel.Frame
import proofs.«119618_j74122545594672_1_alg».proof.Proof.Gen.KernelIdeal
import proofs.«119618_j74122545594672_1_alg».proof.Proof.Gen.KernelIdeal.Skeleton
import proofs.«119618_j74122545594672_1_alg».proof.Proof.Gen.KernelIdeal.Launch
import proofs.«119618_j74122545594672_1_alg».proof.Proof.Gen.KernelIdeal.Points
import proofs.«119618_j74122545594672_1_alg».proof.Proof.Gen.KernelIdeal.Frame
import proofs.«119618_j74122545594672_1_alg».proof.Proof.Gen.ReferenceIdeal
import proofs.«119618_j74122545594672_1_alg».proof.Proof.Gen.ReferenceIdeal.Run
import proofs.«119618_j74122545594672_1_alg».proof.Proof.Gen.Pre_finite_inputs
import proofs.«119618_j74122545594672_1_alg».proof.Proof.KernelRun
import proofs.«119618_j74122545594672_1_alg».proof.Proof.Stages
import proofs.«119618_j74122545594672_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the network of those arguments in their result. -/
theorem algebraic : Cert.algebraic_KernelIdeal_ReferenceIdeal := by
  intro m ρ m' ρ' _ hagree
  refine ⟨fun c => Cert.KernelIdeal.Hand.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.W6_result m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.result_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
